-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S262144x256 .f32) (main_arg1 : FVec F S262144x256 .f32) (main_arg2 : FVec F S256x256 .f32) (main_arg3 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S262144x256 : Shape := ⟨2, ![262144, 256]⟩
abbrev S256x256 : Shape := ⟨2, ![256, 256]⟩
abbrev S256x512 : Shape := ⟨2, ![256, 512]⟩
abbrev S_ : Shape := ⟨0, ![]⟩
abbrev S2048x256 : Shape := ⟨2, ![2048, 256]⟩
abbrev S2048x512 : Shape := ⟨2, ![2048, 512]⟩

abbrev nBuf : Space → Nat
  | .hbm => 11
  | .vmem => 9
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S256x256, .f32⟩
  | .hbm, ⟨3, _⟩ => ⟨S256x256, .f32⟩
  | .hbm, ⟨4, _⟩ => ⟨S256x512, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S256x512, .bf16⟩
  | .hbm, ⟨9, _⟩ => ⟨S262144x256, .f32⟩
  | .hbm, ⟨10, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x512, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S256x256_S256x256_S256x512_d1 : Shape.Concatenates [S256x256, S256x256] S256x512 1
  bcast_S_S256x512 : S_.BroadcastsInDim S256x512 (![] : Fin 0 → Fin S256x512.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S2048x512_o0_0_S2048x256 : S2048x512.Slices ![0, 0] S2048x256
  slices_S2048x512_o0_256_S2048x256 : S2048x512.Slices ![0, 256] S2048x256
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .f32 = 32 ∨ (Rect.block (s := S262144x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S256x256, .f32⟩
  | .hbm, ⟨3, _⟩ => ⟨S256x256, .f32⟩
  | .hbm, ⟨4, _⟩ => ⟨S262144x256, .f32⟩
  | .hbm, ⟨5, _⟩ => ⟨S262144x256, .f32⟩
  | .hbm, ⟨6, _⟩ => ⟨S262144x256, .f32⟩
  | .hbm, ⟨7, _⟩ => ⟨S262144x256, .f32⟩
  | .hbm, ⟨8, _⟩ => ⟨S262144x256, .f32⟩
  | .hbm, ⟨9, _⟩ => ⟨S262144x256, .f32⟩
  | .hbm, ⟨10, _⟩ => ⟨S_, .f32⟩
  | .hbm, ⟨11, _⟩ => ⟨S262144x256, .f32⟩
  | .hbm, ⟨12, _⟩ => ⟨S262144x256, .f32⟩
  | .hbm, ⟨13, _⟩ => ⟨S_, .f32⟩
  | .hbm, ⟨14, _⟩ => ⟨S262144x256, .f32⟩
  | .hbm, ⟨15, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S262144x256 : S_.BroadcastsInDim S262144x256 (![] : Fin 0 → Fin S262144x256.rank)
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.BlockProduct.lean ====
/-
  WHAT THE BODY COMPUTES ON ONE BLOCK.  At a grid point the body holds a 2048 × 256 block `a` of `xr`, the same rows
  `b` of `xi`, and the whole packed 256 × 512 weight matrix `w`.  It forms the two products `a·w` and `b·w`
  (2048 × 512; a matrix product into a zero accumulator is, at the exact values, the plain sum over the contracted
  axis, and narrowing an operand's float format changes nothing), and writes
      left half of a·w  −  right half of b·w      and      right half of a·w  +  left half of b·w.
  Entry (p, q) of the first is `∑ₖ a(p,k)·w(k,q) − ∑ₖ b(p,k)·w(k,q+256)`, of the second
  `∑ₖ a(p,k)·w(k,q+256) + ∑ₖ b(p,k)·w(k,q)`.
-/
import proofs.«102587_j29789893165287_2_alg».proof.Proof.Gen.KernelIdeal.Value
import Idealize.ShloMosaic.Lib.ValueIdx
import Idealize.ShloMosaic.Lib.Pipeline.Value
import Idealize.ShloMosaic.PureOps.Ideal.Laws

open scoped BigOperators

noncomputable section

namespace Cert.BlockProduct

open Idealize.ShloMosaic Cert.KernelIdeal Cert.KernelIdeal.Gen

/-! ## The operand indices of the block product -/

theorem lhs_0 (j : S2048x512.Idx) (q : dot_S2048x256_S256x512_S2048x512_1_0_0_1_n_n.contr.Idx) :
    (dot_S2048x256_S256x512_S2048x512_1_0_0_1_n_n.lhsIdx j q 0).val = (j 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_1 (j : S2048x512.Idx) (q : dot_S2048x256_S256x512_S2048x512_1_0_0_1_n_n.contr.Idx) :
    (dot_S2048x256_S256x512_S2048x512_1_0_0_1_n_n.lhsIdx j q 1).val = (q ⟨0, by decide⟩).val :=
  dot_S2048x256_S256x512_S2048x512_1_0_0_1_n_n.lhsIdx_val_of_single rfl j q
theorem rhs_0 (j : S2048x512.Idx) (q : dot_S2048x256_S256x512_S2048x512_1_0_0_1_n_n.contr.Idx) :
    (dot_S2048x256_S256x512_S2048x512_1_0_0_1_n_n.rhsIdx j q 0).val = (q ⟨0, by decide⟩).val :=
  dot_S2048x256_S256x512_S2048x512_1_0_0_1_n_n.rhsIdx_val_of_single rfl j q
theorem rhs_1 (j : S2048x512.Idx) (q : dot_S2048x256_S256x512_S2048x512_1_0_0_1_n_n.contr.Idx) :
    (dot_S2048x256_S256x512_S2048x512_1_0_0_1_n_n.rhsIdx j q 1).val = (j 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Entry `k` of row `j 0` of the left operand, and entry `k` of column `j 1` of the right operand. -/
abbrev lrow (j : S2048x512.Idx) (k : Fin 256) : S2048x256.Idx := ValueIdx.ix2 (n0 := 2048) (n1 := 256) (j 0) k
abbrev rcol (j : S2048x512.Idx) (k : Fin 256) : S256x512.Idx := ValueIdx.ix2 (n0 := 256) (n1 := 512) k (j 1)

/-- ONE BLOCK PRODUCT at an index: the sum over the contracted axis of row times column. -/
theorem prod_apply (a : Vec Ideal S2048x256 .f32) (w : Vec Ideal S256x512 .bf16) (j : S2048x512.Idx) :
    k0_pay2 (F := Ideal) a w j = ∑ k : Fin 256, a (lrow j k) * w (rcol j k) := by
  unfold k0_pay2 k0_pay1
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx j ((ValueIdx.contrEquiv1 dot_S2048x256_S256x512_S2048x512_1_0_0_1_n_n 256 rfl rfl).symm k) = lrow j k := funext fun a => Fin.ext (by
    match a with
    | ⟨0, _⟩ => exact lhs_0 _ _
    | ⟨1, _⟩ => exact (lhs_1 _ _).trans hk)
  have er : dot_S2048x256_S256x512_S2048x512_1_0_0_1_n_n.rhsIdx j ((ValueIdx.contrEquiv1 dot_S2048x256_S256x512_S2048x512_1_0_0_1_n_n 256 rfl rfl).symm k) = rcol j k := funext fun a => Fin.ext (by
    match a with
    | ⟨0, _⟩ => exact (rhs_0 _ _).trans hk
    | ⟨1, _⟩ => exact rhs_1 _ _)
  rw [el, er, shapeCast_self]
  rfl

/-- The second product is the same operation on the other signal block. -/
theorem prod'_eq (b : Vec Ideal S2048x256 .f32) (w : Vec Ideal S256x512 .bf16) : k0_pay3 (F := Ideal) b w = k0_pay2 (F := Ideal) b w := rfl

/-! ## The two written blocks at an index -/

/-- Entry `k` of the row of `y` in a signal block; entry `k` of the column of `y` in the left half of the packed
    matrix, and in its right half. -/
abbrev bRow (y : S2048x256.Idx) (k : Fin 256) : S2048x256.Idx := ValueIdx.ix2 (n0 := 2048) (n1 := 256) (y 0) k
abbrev bLo (y : S2048x256.Idx) (k : Fin 256) : S256x512.Idx :=
  ValueIdx.ix2 (n0 := 256) (n1 := 512) k ⟨(y 1).val, by have : (y 1).val < 256 := (y 1).isLt; show (y 1).val < 512; omega⟩
abbrev bHi (y : S2048x256.Idx) (k : Fin 256) : S256x512.Idx :=
  ValueIdx.ix2 (n0 := 256) (n1 := 512) k ⟨(y 1).val + 256, by have : (y 1).val < 256 := (y 1).isLt; show (y 1).val + 256 < 512; omega⟩

/-- THE FIRST WRITTEN BLOCK at an index. -/
theorem re_apply (a b : Vec Ideal S2048x256 .f32) (w : Vec Ideal S256x512 .bf16) (y : S2048x256.Idx) :
    Value.E3 (F := Ideal) a w b y = (∑ k : Fin 256, a (bRow y k) * w (bLo y k)) - (∑ k : Fin 256, b (bRow y k) * w (bHi y k)) := by
  show FloatOps.subf (k0_pay2 (F := Ideal) a w (Value.ix3_0 y)) (k0_pay3 (F := Ideal) b w (Value.ix3_1 y)) = _
  rw [prod'_eq, prod_apply, prod_apply]
  rfl

/-- THE SECOND WRITTEN BLOCK at an index. -/
theorem im_apply (a b : Vec Ideal S2048x256 .f32) (w : Vec Ideal S256x512 .bf16) (y : S2048x256.Idx) :
    Value.E4 (F := Ideal) a w b y = (∑ k : Fin 256, a (bRow y k) * w (bHi y k)) + (∑ k : Fin 256, b (bRow y k) * w (bLo y k)) := by
  show FloatOps.addf (k0_pay2 (F := Ideal) a w (Value.ix4_0 y)) (k0_pay3 (F := Ideal) b w (Value.ix4_1 y)) = _
  rw [prod'_eq, prod_apply, prod_apply]
  rfl

end Cert.BlockProduct

end
-- ==== Proof.ScaleLaw.lean ====
/-
  The one algebraic law that joins the two programs.  A complex product of a row with a column, scaled:
  the kernel scales the weights first, `∑ a·(b·s) ∓ ∑ c·(d·s)`, the reference scales the combined sums last,
  `(∑ a·b ∓ ∑ c·d)·s`.  On the extended reals a factor moves across a sum and a difference only where every term is
  finite (`⊤ - ⊤` is junk), so the law is stated for finite entries and proved on the reals, where it is distributivity.
-/
import Idealize.ShloMosaic.PureOps.Ideal

open scoped BigOperators

namespace Cert.ScaleLaw

/-- The embedding of the reals into the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Real part: with every entry finite, scaling both weight columns by `s` before the two sums and the difference
    is scaling the difference of the sums by `s` afterwards. -/
theorem sub_scaled {K : ℕ} (a b c d : Fin K → EReal) (s : EReal)
    (ha : ∀ k, ∃ r : ℝ, a k = r) (hb : ∀ k, ∃ r : ℝ, b k = r) (hc : ∀ k, ∃ r : ℝ, c k = r)
    (hd : ∀ k, ∃ r : ℝ, d k = r) (hs : ∃ r : ℝ, s = r) :
    (∑ k, a k * (b k * s)) - (∑ k, c k * (d k * s)) = ((∑ k, a k * b k) - (∑ k, c k * d k)) * s := by
  choose a' ha using ha
  choose b' hb using hb
  choose c' hc using hc
  choose d' hd using hd
  obtain ⟨s', rfl⟩ := hs
  simp only [ha, hb, hc, hd, ← EReal.coe_mul, ← coe_sum, ← EReal.coe_sub]
  congr 1
  rw [sub_mul, Finset.sum_mul, Finset.sum_mul]
  congr 1 <;> exact Finset.sum_congr rfl fun k _ => by ring

/-- Imaginary part: the same with a sum in place of the difference. -/
theorem add_scaled {K : ℕ} (a b c d : Fin K → EReal) (s : EReal)
    (ha : ∀ k, ∃ r : ℝ, a k = r) (hb : ∀ k, ∃ r : ℝ, b k = r) (hc : ∀ k, ∃ r : ℝ, c k = r)
    (hd : ∀ k, ∃ r : ℝ, d k = r) (hs : ∃ r : ℝ, s = r) :
    (∑ k, a k * (b k * s)) + (∑ k, c k * (d k * s)) = ((∑ k, a k * b k) + (∑ k, c k * d k)) * s := by
  choose a' ha using ha
  choose b' hb using hb
  choose c' hc using hc
  choose d' hd using hd
  obtain ⟨s', rfl⟩ := hs
  simp only [ha, hb, hc, hd, ← EReal.coe_mul, ← coe_sum, ← EReal.coe_add]
  congr 1
  rw [add_mul, Finset.sum_mul, Finset.sum_mul]
  congr 1 <;> exact Finset.sum_congr rfl fun k _ => by ring

end Cert.ScaleLaw
-- ==== Proof.Consts.lean ====
/-
  The two float constants the proof reads as extended reals: the f32 pattern of `+inf`, which the precondition
  compares every entry's absolute value against, denotes `⊤`; the scale's pattern denotes 2⁻⁴ = 1/16, a real number.
-/
import Idealize.ShloMosaic.PureOps.Ideal

noncomputable section

namespace Cert.Consts

open Idealize.ShloMosaic

/-- The f32 pattern of `+inf` denotes `⊤`. -/
theorem ofBits_inf : Ideal.ofBits .f32 0x7F800000#32 = ⊤ := by
  simp [Ideal.ofBits, Ideal.ieee]

/-- The scale `0.0625` = 1/√256 denotes the real `1/16`. -/
theorem ofBits_scale : Ideal.ofBits .f32 0x3D800000#32 = ((1 / 16 : ℝ) : EReal) := by
  simp [Ideal.ofBits, Ideal.ieee, -EReal.coe_mul]; norm_num

end Cert.Consts

end
-- ==== Proof.DftSpec.lean ====
/-
  THE SPECIFICATION.  Both programs compute the scaled complex product of the rows of `x = xr + i·xi`
  (262144 × 256) with the columns of `W = wr + i·wi` (256 × 256):

      re (r, j) = (∑ₖ xr(r,k)·wr(k,j) − ∑ₖ xi(r,k)·wi(k,j)) · s
      im (r, j) = (∑ₖ xr(r,k)·wi(k,j) + ∑ₖ xi(r,k)·wr(k,j)) · s

  with `s` the scale (the same f32 word in both programs; it is never evaluated, only known to be finite).
  The reference computes exactly this.  The kernel multiplies against ONE packed 256 × 512 weight matrix
  `wp = [wr·s | wi·s]` — its left half the scaled real part, its right half the scaled imaginary part — and
  combines the four products: `packedRe`, `packedIm`.  Where every entry is finite the two arrangements agree
  (`ScaleLaw`): `packedRe_eq`, `packedIm_eq`.
-/
import proofs.«102587_j29789893165287_2_alg».proof.Proof.ScaleLaw
import proofs.«102587_j29789893165287_2_alg».proof.Proof.Consts
import Idealize.ShloMosaic.Lib.ValueIdx

open scoped BigOperators

noncomputable section

namespace Cert.DftSpec

open Idealize.ShloMosaic

/-- The signal arrays' shape, the weight matrices', and the packed weight matrix's. -/
abbrev SX : Shape := ⟨2, ![262144, 256]⟩
abbrev SW : Shape := ⟨2, ![256, 256]⟩
abbrev SP : Shape := ⟨2, ![256, 512]⟩

/-- Entry `k` of the row of `i` in a signal array, and entry `k` of the column of `i` in a weight matrix. -/
abbrev atRow (i : SX.Idx) (k : Fin 256) : SX.Idx := ValueIdx.ix2 (n0 := 262144) (n1 := 256) (i 0) k
abbrev atCol (i : SX.Idx) (k : Fin 256) : SW.Idx := ValueIdx.ix2 (n0 := 256) (n1 := 256) k (i 1)
/-- Entry `k` of the column of `i` in the left half of the packed matrix, and in its right half. -/
abbrev loCol (i : SX.Idx) (k : Fin 256) : SP.Idx :=
  ValueIdx.ix2 (n0 := 256) (n1 := 512) k ⟨(i 1).val, by have : (i 1).val < 256 := (i 1).isLt; show (i 1).val < 512; omega⟩
abbrev hiCol (i : SX.Idx) (k : Fin 256) : SP.Idx :=
  ValueIdx.ix2 (n0 := 256) (n1 := 512) k ⟨(i 1).val + 256, by have : (i 1).val < 256 := (i 1).isLt; show (i 1).val + 256 < 512; omega⟩

/-- The real part of the scaled product. -/
def dftRe (xr xi : SX.Idx → EReal) (wr wi : SW.Idx → EReal) (s : EReal) : SX.Idx → EReal := fun i =>
  ((∑ k : Fin 256, xr (atRow i k) * wr (atCol i k)) - (∑ k : Fin 256, xi (atRow i k) * wi (atCol i k))) * s

/-- The imaginary part of the scaled product. -/
def dftIm (xr xi : SX.Idx → EReal) (wr wi : SW.Idx → EReal) (s : EReal) : SX.Idx → EReal := fun i =>
  ((∑ k : Fin 256, xr (atRow i k) * wi (atCol i k)) + (∑ k : Fin 256, xi (atRow i k) * wr (atCol i k))) * s

/-- The real part as the kernel arranges it: `xr` against the left half of the packed matrix less `xi` against
    its right half. -/
def packedRe (xr xi : SX.Idx → EReal) (wp : SP.Idx → EReal) : SX.Idx → EReal := fun i =>
  (∑ k : Fin 256, xr (atRow i k) * wp (loCol i k)) - (∑ k : Fin 256, xi (atRow i k) * wp (hiCol i k))

/-- The imaginary part as the kernel arranges it: `xr` against the right half plus `xi` against the left half. -/
def packedIm (xr xi : SX.Idx → EReal) (wp : SP.Idx → EReal) : SX.Idx → EReal := fun i =>
  (∑ k : Fin 256, xr (atRow i k) * wp (hiCol i k)) + (∑ k : Fin 256, xi (atRow i k) * wp (loCol i k))

variable (xr xi : SX.Idx → EReal) (wr wi : SW.Idx → EReal) (wp : SP.Idx → EReal) (s : EReal)

/-- With the packed matrix's halves the scaled weights and every entry finite, the kernel's real part is the
    specification's: the scale leaves the two sums and their difference. -/
theorem packedRe_eq (hlo : ∀ i k, wp (loCol i k) = wr (atCol i k) * s) (hhi : ∀ i k, wp (hiCol i k) = wi (atCol i k) * s)
    (hxr : ∀ i, ∃ r : ℝ, xr i = r) (hxi : ∀ i, ∃ r : ℝ, xi i = r) (hwr : ∀ i, ∃ r : ℝ, wr i = r)
    (hwi : ∀ i, ∃ r : ℝ, wi i = r) (hs : ∃ r : ℝ, s = r) :
    packedRe xr xi wp = dftRe xr xi wr wi s := by
  funext i
  unfold packedRe dftRe
  simp only [hlo, hhi]
  exact ScaleLaw.sub_scaled _ _ _ _ s (fun k => hxr _) (fun k => hwr _) (fun k => hxi _) (fun k => hwi _) hs

/-- The same for the imaginary part. -/
theorem packedIm_eq (hlo : ∀ i k, wp (loCol i k) = wr (atCol i k) * s) (hhi : ∀ i k, wp (hiCol i k) = wi (atCol i k) * s)
    (hxr : ∀ i, ∃ r : ℝ, xr i = r) (hxi : ∀ i, ∃ r : ℝ, xi i = r) (hwr : ∀ i, ∃ r : ℝ, wr i = r)
    (hwi : ∀ i, ∃ r : ℝ, wi i = r) (hs : ∃ r : ℝ, s = r) :
    packedIm xr xi wp = dftIm xr xi wr wi s := by
  funext i
  unfold packedIm dftIm
  simp only [hlo, hhi]
  exact ScaleLaw.add_scaled _ _ _ _ s (fun k => hxr _) (fun k => hwi _) (fun k => hxi _) (fun k => hwr _) hs

/-- The scale's word, 2⁻⁴ in f32, denotes a real number. -/
theorem scale_real : ∃ r : ℝ, Ideal.ofBits .f32 0x3D800000#32 = r := ⟨_, Cert.Consts.ofBits_scale⟩

end Cert.DftSpec

end
-- ==== Proof.PackedWeights.lean ====
/-
  THE PACKED WEIGHT MATRIX.  Before the region the program concatenates `wr` and `wi` side by side into a 256 × 512
  matrix, multiplies every entry by the splat scale `s` and narrows the float format (no change of value): the region
  finds `wp = [wr·s | wi·s]`.  So column `q` of its left half is column `q` of `wr` scaled, and column `q + 256` — column
  `q` of its right half — is column `q` of `wi` scaled.
-/
import proofs.«102587_j29789893165287_2_alg».proof.Proof.Gen.KernelIdeal.Frame
import proofs.«102587_j29789893165287_2_alg».proof.Proof.DftSpec
import Idealize.ShloMosaic.Lib.StableHlo.Run
import Idealize.ShloMosaic.Lib.Pipeline.Value
import Idealize.ShloMosaic.Lib.ValueIdx

noncomputable section

namespace Cert.PackedWeights

open Idealize.ShloMosaic Idealize.ShloMosaic.TcCoe Idealize.SL.Sem Idealize.ShloMosaic.StableHlo
open Cert.KernelIdeal Cert.KernelIdeal.Gen Cert.DftSpec

variable (m : (ℓ : Loc nD τ sig) → Buf (Elt Ideal) ℓ)

/-- The packed matrix as the region finds it: the host operations' term of the two weight arguments. -/
theorem packed_eq (c : Dev nD) :
    (V m c main_call0_v3 : S256x512.Idx → EReal) =
      truncf .bf16 (mulf (concatenate S256x512 1 [⟨S256x256, m ((c : Thread nD τ).loc main_arg2)⟩, ⟨S256x256, m ((c : Thread nD τ).loc main_arg3)⟩] concatenates_S256x256_S256x256_S256x512_d1)
        (broadcastInDim S256x512 ![] bcast_S_S256x512 (constant (F := Ideal) S_ .f32 0x3D800000#32))) bitsLt_bf16_f32 := by
  dsimp only [Gen.V, Gen.hostOps0]; after_results; rfl

/-- The left half: column `q` of the packed matrix is column `q` of `wr`, scaled. -/
theorem packed_lo (c : Dev nD) (i : SX.Idx) (k : Fin 256) :
    (V m c main_call0_v3 : S256x512.Idx → EReal) (loCol i k) = (show EReal from m ((c : Thread nD τ).loc main_arg2) (atCol i k)) * Ideal.ofBits .f32 0x3D800000#32 := by
  rw [packed_eq]
  show (concatenate S256x512 1 [⟨S256x256, m ((c : Thread nD τ).loc main_arg2)⟩, ⟨S256x256, m ((c : Thread nD τ).loc main_arg3)⟩] concatenates_S256x256_S256x256_S256x512_d1 (loCol i k) : EReal)
      * (broadcastInDim S256x512 ![] bcast_S_S256x512 (constant (F := Ideal) S_ .f32 0x3D800000#32) (loCol i k) : EReal) = _
  rw [concatenate_pair_apply_left (t := S256x512) (s₁ := S256x256) (s₂ := S256x256) (1 : Fin 2) (m ((c : Thread nD τ).loc main_arg2)) (m ((c : Thread nD τ).loc main_arg3)) concatenates_S256x256_S256x256_S256x512_d1 (loCol i k) rfl (atCol i k)
      (fun b => by match b with | ⟨0, _⟩ => rfl | ⟨1, _⟩ => rfl),
    broadcastInDim_apply _ bcast_S_S256x512 _ (loCol i k) ValueIdx.ix0 (fun a => a.elim0)]
  rfl

/-- The right half: column `q + 256` of the packed matrix is column `q` of `wi`, scaled. -/
theorem packed_hi (c : Dev nD) (i : SX.Idx) (k : Fin 256) :
    (V m c main_call0_v3 : S256x512.Idx → EReal) (hiCol i k) = (show EReal from m ((c : Thread nD τ).loc main_arg3) (atCol i k)) * Ideal.ofBits .f32 0x3D800000#32 := by
  rw [packed_eq]
  show (concatenate S256x512 1 [⟨S256x256, m ((c : Thread nD τ).loc main_arg2)⟩, ⟨S256x256, m ((c : Thread nD τ).loc main_arg3)⟩] concatenates_S256x256_S256x256_S256x512_d1 (hiCol i k) : EReal)
      * (broadcastInDim S256x512 ![] bcast_S_S256x512 (constant (F := Ideal) S_ .f32 0x3D800000#32) (hiCol i k) : EReal) = _
  rw [concatenate_pair_apply_right (t := S256x512) (s₁ := S256x256) (s₂ := S256x256) (1 : Fin 2) (m ((c : Thread nD τ).loc main_arg2)) (m ((c : Thread nD τ).loc main_arg3)) concatenates_S256x256_S256x256_S256x512_d1 (hiCol i k) rfl rfl (atCol i k)
      (fun b hb => by match b with | ⟨0, _⟩ => rfl | ⟨1, _⟩ => exact absurd rfl hb) rfl,
    broadcastInDim_apply _ bcast_S_S256x512 _ (hiCol i k) ValueIdx.ix0 (fun a => a.elim0)]
  rfl

end Cert.PackedWeights

end
-- ==== Proof.FiniteInputs.lean ====
/-
  What the precondition says, entry by entry.  The printed predicate is the conjunction of four `jnp.all(|x| < +inf)`,
  one per argument array; each `all` is a reduction by `and` from 1 into a rank-0 result, so the predicate being 1
  gives `|x i| < +inf` at every index of every array, and an extended real whose absolute value `max x (-x)` lies
  below `⊤` is neither `⊤` nor `⊥`: it is a real number.
-/
import proofs.«102587_j29789893165287_2_alg».proof.Pre_finite_inputs
import proofs.«102587_j29789893165287_2_alg».proof.Proof.Consts
import Idealize.ShloMosaic.Lib.ReduceAll
import Idealize.ShloMosaic.Lib.ValueIdx
import Idealize.ShloMosaic.Lib.Pipeline.Value

noncomputable section

namespace Cert.FiniteInputs

open Idealize.ShloMosaic Cert.Pre_finite_inputs

/-- An extended real whose absolute value compares below `+inf` is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have h' : max x (-x) < ⊤ := by
    have : BitVec.ofBool (decide (max x (-x) < Ideal.ofBits .f32 0x7F800000#32)) = 1#1 := h
    rw [Cert.Consts.ofBits_inf] at this
    by_contra hn
    rw [decide_eq_false hn] at this
    exact absurd this (by decide)
  induction x using EReal.rec with
  | bot => simp at h'
  | top => simp at h'
  | coe r => exact ⟨r, rfl⟩

instance : Subsingleton S_.Idx := ⟨fun a b => funext fun d => d.elim0⟩

variable [Facts]

/-- One `jnp.all(|x| < +inf)` that came out 1 makes every entry of `x` a real number. -/
theorem real_of_all {s : Shape} (x : FVec Ideal s .f32) (hb : S_.BroadcastsInDim s (![] : Fin 0 → Fin s.rank))
    {axes : List (Fin s.rank)} (hr : s.ReducesTo axes S_) (hn : 0 < S_.numel) (init : IVec S_ 1)
    (h : Host.reduce IntOp.andi (cmpf .olt (Host.absf x) (broadcastInDim s ![] hb (constant S_ .f32 0x7F800000#32))) init hr hn ValueIdx.ix0 = 1#1)
    (i : s.Idx) : ∃ r : ℝ, x i = r := by
  have e := Host.reduce_andi_all _ init hr hn ValueIdx.ix0 h i
  refine real_of_abs_lt_inf (x i) ?_
  have eb : broadcastInDim s ![] hb (constant (F := Ideal) S_ .f32 0x7F800000#32) i = FloatOps.ofBits (F := Ideal) .f32 0x7F800000#32 :=
    broadcastInDim_apply _ hb _ i ValueIdx.ix0 (fun a => a.elim0)
  have : FloatOps.cmpf (F := Ideal) (φ := .f32) .olt (FloatOps.hostAbsf (x i)) (broadcastInDim s ![] hb (constant (F := Ideal) S_ .f32 0x7F800000#32) i) = 1#1 := e
  rwa [eb] at this

/-- THE PRECONDITION READ BACK: under `finite_inputs` every entry of each of the four argument arrays is a real number. -/
theorem reals_of_pre (x0 x1 : FVec Ideal S262144x256 .f32) (x2 x3 : FVec Ideal S256x256 .f32)
    (h : fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ _ _ _ h0', real_of_all x1 _ _ _ _ h1, real_of_all x2 _ _ _ _ h2,
    real_of_all x3 _ _ _ _ h3⟩

end Cert.FiniteInputs

end
-- ==== Proof.KernelValue.lean ====
/-
  FROM BLOCKS TO THE ARRAYS.  The grid has 128 points; point `t` holds rows `2048·t … 2048·t + 2047` of `xr` and of `xi`
  (all 256 columns), the whole packed weight matrix, and writes the same rows of the two results.  So entry `(p, k)` of
  a signal block is entry `(2048·t + p, k)` of its array, the block of each result at `t` is the restriction to those
  rows of ONE function of the whole arrays (`packedRe`, `packedIm`), and since every row lies in exactly one block
  (`r / 2048`), the result arrays end holding those functions.  Under the precondition every entry is finite, the packed
  matrix's halves are the scaled weights, and the functions are the specification's `dftRe`, `dftIm`.
-/
import proofs.«102587_j29789893165287_2_alg».proof.Defs
import proofs.«102587_j29789893165287_2_alg».proof.Proof.Gen.KernelIdeal.Value
import proofs.«102587_j29789893165287_2_alg».proof.Proof.Gen.Pre_finite_inputs
import proofs.«102587_j29789893165287_2_alg».proof.Proof.BlockProduct
import proofs.«102587_j29789893165287_2_alg».proof.Proof.PackedWeights
import proofs.«102587_j29789893165287_2_alg».proof.Proof.FiniteInputs
import proofs.«102587_j29789893165287_2_alg».proof.Proof.DftSpec

open scoped BigOperators

noncomputable section

namespace Cert.KernelValue

open Idealize.ShloMosaic Idealize.ShloMosaic.TcCoe Idealize.SL.Sem
open Cert.KernelIdeal Cert.KernelIdeal.Gen Cert.DftSpec Cert.BlockProduct
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 128 points: the signal blocks and both result blocks move together down
    the rows and never along the columns; the packed matrix's block never moves. -/
theorem index_maps : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = win0_3.index t (0 : Fin 2) ∧ win0_4.index t (1 : Fin 2) = 0 :=
  (by decide +kernel : ∀ t : Fin grid0.N, _)

/-- Every band of 2048 rows is some point's block, of both results. -/
theorem band_onto : ∀ q : Fin 128, ∃ t : Fin cfg0.N, win0_3.index t = ![q.val, 0] ∧ win0_4.index t = ![q.val, 0] :=
  (by decide +kernel : ∀ q : Fin 128, ∃ t : Fin grid0.N, win0_3.index t = ![q.val, 0] ∧ win0_4.index t = ![q.val, 0])

/-! ## The signal blocks and the packed matrix read where a result block's entry sits -/

section Reads
variable (c : Dev nD) (t : Fin cfg0.N) (y : S2048x256.Idx) (k : Fin 256)

/-- Entry `k` of the row of `y` in the `xr` block is entry `k` of the row, in `xr`, of the array index under `y` in the first result's block. -/
theorem xr_read : iblk m c 0 t (bRow y k) = V m c main_arg0 (atRow (((cfg0.win 3).blk t).view.emb y) k) := by
  obtain ⟨e0, e1, -⟩ := index_maps t
  show V m c main_arg0 (((cfg0.win 0).blk t).view.emb (bRow y k)) = _
  refine congrArg (V m c main_arg0) (funext fun a => Fin.ext ?_)
  match a with
  | ⟨0, _⟩ => show win0_0.index t (0 : Fin 2) * 2048 + 1 * (y 0).val = win0_3.index t (0 : Fin 2) * 2048 + 1 * (y 0).val; omega
  | ⟨1, _⟩ => show win0_0.index t (1 : Fin 2) * 256 + 1 * k.val = k.val; omega

/-- The same for the `xi` block. -/
theorem xi_read : iblk m c 1 t (bRow y k) = V m c main_arg1 (atRow (((cfg0.win 3).blk t).view.emb y) k) := by
  obtain ⟨-, -, e0, e1, -⟩ := index_maps t
  show V m c main_arg1 (((cfg0.win 1).blk t).view.emb (bRow y k)) = _
  refine congrArg (V m c main_arg1) (funext fun a => Fin.ext ?_)
  match a with
  | ⟨0, _⟩ => show win0_1.index t (0 : Fin 2) * 2048 + 1 * (y 0).val = win0_3.index t (0 : Fin 2) * 2048 + 1 * (y 0).val; omega
  | ⟨1, _⟩ => show win0_1.index t (1 : Fin 2) * 256 + 1 * k.val = k.val; omega

/-- The packed matrix's block is the packed matrix: its left-half column under `y`, -/
theorem lo_read : iblk m c 2 t (bLo y k) = V m c main_call0_v3 (loCol (((cfg0.win 3).blk t).view.emb y) k) := by
  obtain ⟨-, -, -, -, e0, e1, e3, -⟩ := index_maps t
  show V m c main_call0_v3 (((cfg0.win 2).blk t).view.emb (bLo y k)) = _
  refine congrArg (V m c main_call0_v3) (funext fun a => Fin.ext ?_)
  match a with
  | ⟨0, _⟩ => show win0_2.index t (0 : Fin 2) * 256 + 1 * k.val = k.val; omega
  | ⟨1, _⟩ => show win0_2.index t (1 : Fin 2) * 512 + 1 * (y 1).val = win0_3.index t (1 : Fin 2) * 256 + 1 * (y 1).val; omega

/-- and its right-half column. -/
theorem hi_read : iblk m c 2 t (bHi y k) = V m c main_call0_v3 (hiCol (((cfg0.win 3).blk t).view.emb y) k) := by
  obtain ⟨-, -, -, -, e0, e1, e3, -⟩ := index_maps t
  show V m c main_call0_v3 (((cfg0.win 2).blk t).view.emb (bHi y k)) = _
  refine congrArg (V m c main_call0_v3) (funext fun a => Fin.ext ?_)
  match a with
  | ⟨0, _⟩ => show win0_2.index t (0 : Fin 2) * 256 + 1 * k.val = k.val; omega
  | ⟨1, _⟩ => show win0_2.index t (1 : Fin 2) * 512 + 1 * ((y 1).val + 256) = win0_3.index t (1 : Fin 2) * 256 + 1 * (y 1).val + 256; omega

/-- The two results' blocks at a point sit on the same rows. -/
theorem emb4_eq : ((cfg0.win 4).blk t).view.emb y = ((cfg0.win 3).blk t).view.emb y := by
  obtain ⟨-, -, -, -, -, -, e3, e40, e41⟩ := index_maps t
  funext a; apply Fin.ext
  match a with
  | ⟨0, _⟩ => show win0_4.index t (0 : Fin 2) * 2048 + 1 * (y 0).val = win0_3.index t (0 : Fin 2) * 2048 + 1 * (y 0).val; omega
  | ⟨1, _⟩ => show win0_4.index t (1 : Fin 2) * 256 + 1 * (y 1).val = win0_3.index t (1 : Fin 2) * 256 + 1 * (y 1).val; omega

end Reads

/-! ## What a point writes back is its block of one whole-array function -/

/-- Point `t` writes block `t` of `packedRe` of the arrays as the region finds them. -/
theorem flushed_re (c : Dev nD) (t : Fin cfg0.N) :
    (dats m 0 c).flushed 3 t = ((cfg0.win 3).blk t).view.read (Elt Ideal)
      (packedRe (V m c main_arg0) (V m c main_arg1) (V m c main_call0_v3)) := by
  rw [Value.flushed3]
  unfold out0_3
  simp only [View.ld_unit_zero (S := S2048x256) zero_offsets, View.ld_unit_zero (S := S256x512) zero_offsets]
  funext y
  show View.canon ([⟨r0_0, k0_pay4 (iblk m c 0 t) (iblk m c 1 t) (iblk m c 2 t)⟩] : List (View.Piece (Elt Ideal) S2048x256 .f32)) y
    = packedRe (V m c main_arg0) (V m c main_arg1) (V m c main_call0_v3) (((cfg0.win 3).blk t).view.emb y)
  refine (Value.canon3_eq (F := Ideal) (iblk m c 0 t) (iblk m c 2 t) (iblk m c 1 t) y).trans ?_
  refine (re_apply (iblk m c 0 t) (iblk m c 1 t) (iblk m c 2 t) y).trans ?_
  unfold packedRe
  exact congrArg₂ (· - ·)
    (Finset.sum_congr rfl fun k _ => by rw [xr_read m c t y k, lo_read m c t y k])
    (Finset.sum_congr rfl fun k _ => by rw [xi_read m c t y k, hi_read m c t y k])

/-- Point `t` writes block `t` of `packedIm` of the arrays as the region finds them. -/
theorem flushed_im (c : Dev nD) (t : Fin cfg0.N) :
    (dats m 0 c).flushed 4 t = ((cfg0.win 4).blk t).view.read (Elt Ideal)
      (packedIm (V m c main_arg0) (V m c main_arg1) (V m c main_call0_v3)) := by
  rw [Value.flushed4]
  unfold out0_4
  simp only [View.ld_unit_zero (S := S2048x256) zero_offsets, View.ld_unit_zero (S := S256x512) zero_offsets]
  funext y
  show View.canon ([⟨r0_0, k0_pay5 (iblk m c 0 t) (iblk m c 1 t) (iblk m c 2 t)⟩] : List (View.Piece (Elt Ideal) S2048x256 .f32)) y
    = packedIm (V m c main_arg0) (V m c main_arg1) (V m c main_call0_v3) (((cfg0.win 4).blk t).view.emb y)
  refine (Value.canon4_eq (F := Ideal) (iblk m c 0 t) (iblk m c 2 t) (iblk m c 1 t) y).trans ?_
  refine (im_apply (iblk m c 0 t) (iblk m c 1 t) (iblk m c 2 t) y).trans ?_
  rw [emb4_eq t y]
  unfold packedIm
  exact congrArg₂ (· + ·)
    (Finset.sum_congr rfl fun k _ => by rw [xr_read m c t y k, hi_read m c t y k])
    (Finset.sum_congr rfl fun k _ => by rw [xi_read m c t y k, lo_read m c t y k])

/-! ## Every entry of a result array lies in some point's block -/

theorem mem_blk_re (t : Fin cfg0.N) (i : S262144x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v0_0).slice (win0_3.rect t)).set ↔ _
  rw [View.set_slice_whole, Rect.mem_set_unit]
  exact Iff.rfl

theorem mem_blk_im (t : Fin cfg0.N) (i : S262144x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v0_1).slice (win0_4.rect t)).set ↔ _
  rw [View.set_slice_whole, Rect.mem_set_unit]
  exact Iff.rfl

/-- Row `r` lies in the block of the point whose band is `r / 2048`. -/
theorem cover_re (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  obtain ⟨t, ht, -⟩ := band_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk_re]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

theorem cover_im (i : S262144x256.Idx) : ∃ t : Fin cfg0.N, (cfg0.win 4).flush t = true ∧ i ∈ ((cfg0.win 4).blk t).view.set := by
  have hi0 : (i 0).val < 262144 := (i 0).isLt
  have hi1 : (i 1).val < 256 := (i 1).isLt
  obtain ⟨t, -, ht⟩ := band_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk_im]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-! ## The result arrays after the run -/

theorem final_re (c : Dev nD) :
    (dats m 0 c).arrAt 3 cfg0.N = packedRe (V m c main_arg0) (V m c main_arg1) (V m c main_call0_v3) :=
  (dats m 0 c).arrAt_eq_of_cover 3 _ (fun t _ => flushed_re m c t) cover_re

theorem final_im (c : Dev nD) :
    (dats m 0 c).arrAt 4 cfg0.N = packedIm (V m c main_arg0) (V m c main_arg1) (V m c main_call0_v3) :=
  (dats m 0 c).arrAt_eq_of_cover 4 _ (fun t _ => flushed_im m c t) cover_im

/-- The scale, as both programs spell it. -/
abbrev scale : EReal := Ideal.ofBits .f32 0x3D800000#32

/-- Under the precondition the kernel's arrangement is the specification's, for both parts. -/
theorem packed_is_dft (hpre : Cert.Pre_KernelIdeal m) (c : Dev nD) :
    packedRe (V m c main_arg0) (V m c main_arg1) (V m c main_call0_v3)
        = dftRe (m ((c : Thread nD τ).loc main_arg0)) (m ((c : Thread nD τ).loc main_arg1)) (m ((c : Thread nD τ).loc main_arg2)) (m ((c : Thread nD τ).loc main_arg3)) scale
    ∧ packedIm (V m c main_arg0) (V m c main_arg1) (V m c main_call0_v3)
        = dftIm (m ((c : Thread nD τ).loc main_arg0)) (m ((c : Thread nD τ).loc main_arg1)) (m ((c : Thread nD τ).loc main_arg2)) (m ((c : Thread nD τ).loc main_arg3)) scale := by
  obtain ⟨h0, h1, h2, h3⟩ := Cert.FiniteInputs.reals_of_pre _ _ _ _ (hpre c)
  rw [V_main_arg0 m c, V_main_arg1 m c]
  exact ⟨packedRe_eq _ _ _ _ _ _ (PackedWeights.packed_lo m c) (PackedWeights.packed_hi m c) h0 h1 h2 h3 scale_real,
    packedIm_eq _ _ _ _ _ _ (PackedWeights.packed_lo m c) (PackedWeights.packed_hi m c) h0 h1 h2 h3 scale_real⟩

/-- THE KERNEL'S RUN: under the precondition every weakly fair execution terminates with the first result at the real
    part and the second at the imaginary part of the scaled product of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v0_0) = dftRe (m ((c : Thread nD τ).loc main_arg0)) (m ((c : Thread nD τ).loc main_arg1)) (m ((c : Thread nD τ).loc main_arg2)) (m ((c : Thread nD τ).loc main_arg3)) scale
      ∧ r.2.mem ((c : Thread nD τ).loc main_v0_1) = dftIm (m ((c : Thread nD τ).loc main_arg0)) (m ((c : Thread nD τ).loc main_arg1)) (m ((c : Thread nD τ).loc main_arg2)) (m ((c : Thread nD τ).loc main_arg3)) scale
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((final_re m c).trans (packed_is_dft m hpre c).1),
       (h c).2.1.trans ((final_im m c).trans (packed_is_dft m hpre c).2),
       (h c).2.2⟩)
    (Value.run_blocks m ρ)

end Cert.KernelValue

end
-- ==== Proof.RefSide.lean ====
/-
  THE REFERENCE IS THE SPECIFICATION.  Its four `dot_general`s contract the signal's column axis with the weight's row
  axis, so at output index `i` each is `∑ₖ x(row of i, k) · w(k, column of i)`; the difference (the sum) of two of them
  times the splat scale is `dftRe` (`dftIm`) as stated, term for term.
-/
import proofs.«102587_j29789893165287_2_alg».proof.Proof.Gen.ReferenceIdeal.Read
import proofs.«102587_j29789893165287_2_alg».proof.Proof.DftSpec

open scoped BigOperators

noncomputable section

namespace Cert.RefSide

open Idealize.ShloMosaic Cert.ReferenceIdeal Cert.ReferenceIdeal.Read Cert.DftSpec

/-- The operand indices the generated reading names are the specification's row and column entries. -/
theorem l0 (i : S262144x256.Idx) (k : Fin 256) : lidx_main_v0 i k = atRow i k :=
  funext fun a => by match a with | ⟨0, _⟩ => rfl | ⟨1, _⟩ => rfl
theorem r0 (i : S262144x256.Idx) (k : Fin 256) : ridx_main_v0 i k = atCol i k :=
  funext fun a => by match a with | ⟨0, _⟩ => rfl | ⟨1, _⟩ => rfl
theorem l1 (i : S262144x256.Idx) (k : Fin 256) : lidx_main_v1 i k = atRow i k :=
  funext fun a => by match a with | ⟨0, _⟩ => rfl | ⟨1, _⟩ => rfl
theorem r1 (i : S262144x256.Idx) (k : Fin 256) : ridx_main_v1 i k = atCol i k :=
  funext fun a => by match a with | ⟨0, _⟩ => rfl | ⟨1, _⟩ => rfl
theorem l3 (i : S262144x256.Idx) (k : Fin 256) : lidx_main_v3 i k = atRow i k :=
  funext fun a => by match a with | ⟨0, _⟩ => rfl | ⟨1, _⟩ => rfl
theorem r3 (i : S262144x256.Idx) (k : Fin 256) : ridx_main_v3 i k = atCol i k :=
  funext fun a => by match a with | ⟨0, _⟩ => rfl | ⟨1, _⟩ => rfl
theorem l4 (i : S262144x256.Idx) (k : Fin 256) : lidx_main_v4 i k = atRow i k :=
  funext fun a => by match a with | ⟨0, _⟩ => rfl | ⟨1, _⟩ => rfl
theorem r4 (i : S262144x256.Idx) (k : Fin 256) : ridx_main_v4 i k = atCol i k :=
  funext fun a => by match a with | ⟨0, _⟩ => rfl | ⟨1, _⟩ => rfl

/-- The reference's first result is the real part of the scaled product. -/
theorem re_eq (x0 x1 : (⟨S262144x256, .f32⟩ : BufTy).Contents (Elt Ideal)) (x2 x3 : (⟨S256x256, .f32⟩ : BufTy).Contents (Elt Ideal)) :
    val_main_v7 (F := Ideal) x0 x1 x2 x3 = dftRe x0 x1 x2 x3 (Ideal.ofBits .f32 0x3D800000#32) := by
  funext i
  rw [val_main_v7_apply, val_main_v2_apply, val_main_v0_apply, val_main_v1_apply, val_main_v6_apply, val_main_cst_apply]
  simp only [l0, r0, l1, r1]
  rfl

/-- The reference's second result is the imaginary part of the scaled product. -/
theorem im_eq (x0 x1 : (⟨S262144x256, .f32⟩ : BufTy).Contents (Elt Ideal)) (x2 x3 : (⟨S256x256, .f32⟩ : BufTy).Contents (Elt Ideal)) :
    val_main_v9 (F := Ideal) x0 x1 x2 x3 = dftIm x0 x1 x2 x3 (Ideal.ofBits .f32 0x3D800000#32) := by
  funext i
  rw [val_main_v9_apply, val_main_v5_apply, val_main_v3_apply, val_main_v4_apply, val_main_v8_apply, val_main_cst_0_apply]
  simp only [l3, r3, l4, r4]
  rfl

end Cert.RefSide

end
-- ==== Proof.lean ====
/-
  A 256-point transform of 262144 frames as a complex matrix product: with `x = xr + i·xi` (262144 × 256) and
  `W = wr + i·wi` (256 × 256), both programs return the real and imaginary parts of `(x · W) · s`, `s = 1/16`:

      re = (xr·wr − xi·wi) · s        im = (xr·wi + xi·wr) · s.

  The reference forms the four real products whole, combines them, and scales last.  The kernel scales first: it packs
  `[wr·s | wi·s]` into one 256 × 512 matrix before the launch, and at each of 128 grid points multiplies a band of 2048
  rows of `xr` and of `xi` against it, combining the halves of the two products.  At the exact values a change of
  float format is the identity and a matrix product is the plain sum over the contracted axis, so the two sides differ
  only in where the scale sits: `∑ₖ a·(b·s) ∓ ∑ₖ c·(d·s) = (∑ₖ a·b ∓ ∑ₖ c·d)·s`.  That is distributivity, which on the
  extended reals needs every entry finite — exactly what the precondition gives.

  The modules: `ScaleLaw` (the law, on the reals), `Consts` (the two float words read as extended reals),
  `FiniteInputs` (the precondition read back entry by entry), `DftSpec` (the specification and the kernel's arrangement
  of it), `RefSide` (the reference is the specification), `BlockProduct` (what the body computes on one band),
  `PackedWeights` (the packed matrix the region finds), `KernelValue` (from bands to the whole result arrays).
  The frames are the generated ones; the kernel's idealization rewrote nothing, so `preserves` is trivial.
-/
import proofs.«102587_j29789893165287_2_alg».proof.Defs
import proofs.«102587_j29789893165287_2_alg».proof.Proof.Gen.Kernel
import proofs.«102587_j29789893165287_2_alg».proof.Proof.Gen.Kernel.Skeleton
import proofs.«102587_j29789893165287_2_alg».proof.Proof.Gen.Kernel.Launch
import proofs.«102587_j29789893165287_2_alg».proof.Proof.Gen.Kernel.Points
import proofs.«102587_j29789893165287_2_alg».proof.Proof.Gen.Kernel.Frame
import proofs.«102587_j29789893165287_2_alg».proof.Proof.Gen.KernelIdeal
import proofs.«102587_j29789893165287_2_alg».proof.Proof.Gen.KernelIdeal.Skeleton
import proofs.«102587_j29789893165287_2_alg».proof.Proof.Gen.KernelIdeal.Launch
import proofs.«102587_j29789893165287_2_alg».proof.Proof.Gen.KernelIdeal.Points
import proofs.«102587_j29789893165287_2_alg».proof.Proof.Gen.KernelIdeal.Frame
import proofs.«102587_j29789893165287_2_alg».proof.Proof.Gen.ReferenceIdeal
import proofs.«102587_j29789893165287_2_alg».proof.Proof.Gen.Pre_finite_inputs
import proofs.«102587_j29789893165287_2_alg».proof.Proof.Gen.KernelIdeal.Value
import proofs.«102587_j29789893165287_2_alg».proof.Proof.Gen.ReferenceIdeal.Run
import proofs.«102587_j29789893165287_2_alg».proof.Proof.Gen.ReferenceIdeal.Read
import proofs.«102587_j29789893165287_2_alg».proof.Proof.KernelValue
import proofs.«102587_j29789893165287_2_alg».proof.Proof.RefSide
import Idealize.ShloMosaic.Adequacy
import Idealize.ShloMosaic.Init

noncomputable section

namespace Cert.Proof

open Idealize.ShloMosaic Idealize.ShloMosaic.TcCoe Idealize.SL.Sem

/-- The reference has no kernel: its frame is its run with the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- Both runs end with the first result at `dftRe` and the second at `dftIm` of the kernel's argument arrays: the
    kernel's by `KernelValue.run` (under the precondition), the reference's by its generated run, whose terms are the
    specification (`RefSide`) of arguments that agree with the kernel's. -/
theorem algebraic : Cert.algebraic_KernelIdeal_ReferenceIdeal := by
  intro m ρ m' ρ' hpre hagree
  refine ⟨_, _, Cert.KernelValue.run m ρ hpre, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v7_eq, Cert.RefSide.re_eq, (hagree c).1, (hagree c).2.1, (hagree c).2.2.1, (hagree c).2.2.2]
  · rw [(h c).2.1, Cert.ReferenceIdeal.Read.val_main_v9_eq, Cert.RefSide.im_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
